-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x64 .f32) (main_arg4 : FVec F S64 .f32) (main_arg5 : IVec S3200000 32) (main_arg6 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S3200000x16 : Shape := ⟨2, ![3200000, 16]⟩
abbrev S1x16 : Shape := ⟨2, ![1, 16]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 60
  | .vmem => 24
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x64, .f32⟩
  | .hbm, ⟨4, _⟩ => ⟨S64, .f32⟩
  | .hbm, ⟨5, _⟩ => ⟨S3200000, .i32⟩
  | .hbm, ⟨6, _⟩ => ⟨S3200000, .i32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x16, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x1, .f32⟩
  | .hbm, ⟨41, _⟩ => ⟨S100000x1, .f32⟩
  | .hbm, ⟨42, _⟩ => ⟨S1x16, .f32⟩
  | .hbm, ⟨43, _⟩ => ⟨S100000x16, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x16, .f32⟩
  | .hbm, ⟨53, _⟩ => ⟨S_, .f32⟩
  | .hbm, ⟨54, _⟩ => ⟨S100000x16, .f32⟩
  | .hbm, ⟨55, _⟩ => ⟨S3200000x1, .i32⟩
  | .hbm, ⟨56, _⟩ => ⟨S100000x16, .f32⟩
  | .hbm, ⟨57, _⟩ => ⟨S100000x1, .f32⟩
  | .hbm, ⟨58, _⟩ => ⟨S1x64, .f32⟩
  | .hbm, ⟨59, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S64_S1x64 : S64.ShapeCasts S1x64
  inb_S16x64_S16x64_0_0 : ∀ a, (![0, 0] : Fin 2 → Nat) a + S16x64.size a ≤ S16x64.size a
  h_S16x64 : 0 < S16x64.numel
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S3200000x1_S3200000_n_0_0_1_wf : ScatterDims.WF S100000 S3200000x1 S3200000 [] [0] [0] 1
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x64, .f32⟩
  | .hbm, ⟨4, _⟩ => ⟨S64, .f32⟩
  | .hbm, ⟨5, _⟩ => ⟨S3200000, .i32⟩
  | .hbm, ⟨6, _⟩ => ⟨S3200000, .i32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x512, .f32⟩
  | .hbm, ⟨27, _⟩ => ⟨S100000x512, .f32⟩
  | .hbm, ⟨28, _⟩ => ⟨S100000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S_, .f32⟩
  | .hbm, ⟨39, _⟩ => ⟨S100000x16, .f32⟩
  | .hbm, ⟨40, _⟩ => ⟨S3200000x1, .i32⟩
  | .hbm, ⟨41, _⟩ => ⟨S100000x16, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S100000x16, .f32⟩
  | .hbm, ⟨53, _⟩ => ⟨S100000x16, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000x16, .f32⟩
  | .hbm, ⟨63, _⟩ => ⟨S_, .f32⟩
  | .hbm, ⟨64, _⟩ => ⟨S100000x16, .f32⟩
  | .hbm, ⟨65, _⟩ => ⟨S3200000x1, .i32⟩
  | .hbm, ⟨66, _⟩ => ⟨S100000x16, .f32⟩
  | .hbm, ⟨67, _⟩ => ⟨S100000x1, .f32⟩
  | .hbm, ⟨68, _⟩ => ⟨S100000x16, .f32⟩
  | .hbm, ⟨69, _⟩ => ⟨S100000x16, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3200000x1_S3200000_n_0_0_1_wf : ScatterDims.WF S100000 S3200000x1 S3200000 [] [0] [0] 1
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x64_S100000x64_1_0_0_1_n_n_wf : DotDims.WF S100000x16 S16x64 S100000x64 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf

class Facts : Prop extends Facts₀ where

variable [Facts]
-- ==== Proof.KernelRun.lean ====
/-
  The kernel program's run with its RESULT named.

  The program is three pipelined kernels among stretches of host operations. Its run ends with every unscoped buffer at
  the contents of the last segment boundary (`Gen.W6`): the result array `main_v41` at what the third kernel's
  write-backs leave, each argument array as launched.
-/
import proofs.«174652_j1236950581664_1_alg».proof.Proof.Gen.KernelIdeal.Frame

set_option maxRecDepth 16384

noncomputable section

namespace Cert.GraphConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the last
    boundary's contents and the seven arguments as launched. -/
theorem kernel_run : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.GraphConv

end
-- ==== Proof.Spec.lean ====
/-
  The specification: what a two-layer graph convolution computes, stated once over the whole arrays.

  * `norm e` — the degree norm of every node: `rsqrt (max (number of edges whose endpoint `e` names the node) 1)`, the
    degree counted by a scatter-add of ones.
  * `agg src dst h` — the sparse aggregation: row `dst e` of the result is the sum, over the edges `e`, of row `src e` of `h`
    (a gather by source followed by a scatter-add by destination). Both programs apply it to their own projection, so
    it is carried as ONE function and never opened.
  * `proj X W s` — the first dense layer with the source norm folded in: entry `(v, j)` is `(∑ k, X v k * W k j) * s v`.
  * `post A sd ss b` — bias, the rectifier and the two norms between the layers: `max (A v j * sd v + b j) 0 * ss v`.
  * `outp A W sd b` — the second dense layer: `(∑ k, A v k * W k j) * sd v + b j`.
  * `col`, `row16`, `row64` — a vector as a one-column matrix, a bias as a one-row matrix.
-/
import proofs.«174652_j1236950581664_1_alg».proof.KernelIdeal
import proofs.«174652_j1236950581664_1_alg».proof.Proof.Gen.KernelIdeal
import Idealize.ShloMosaic.PureOps.Ideal
import Idealize.ShloMosaic.Lib.ValueIdx

noncomputable section

namespace Cert.GraphConv

open Cert.KernelIdeal Cert.KernelIdeal.Facts₀ Cert.KernelIdeal.Facts Idealize.ShloMosaic Idealize.ShloMosaic.ValueIdx

/-- The node an entry of an `[N, 16]` array belongs to, and its feature. -/
abbrev node16 (i : S100000x16.Idx) : Fin 100000 := ⟨(i 0).val, (i 0).isLt⟩
abbrev feat16 (i : S100000x16.Idx) : Fin 16 := ⟨(i 1).val, (i 1).isLt⟩
/-- The node an entry of an `[N, 64]` array belongs to, and its label. -/
abbrev node64 (i : S100000x64.Idx) : Fin 100000 := ⟨(i 0).val, (i 0).isLt⟩
abbrev feat64 (i : S100000x64.Idx) : Fin 64 := ⟨(i 1).val, (i 1).isLt⟩

/-- The degree norm of every node under the endpoint list `e`: `rsqrt (max degree 1)`. -/
def norm (e : S3200000.Idx → BitVec 32) : S100000.Idx → EReal :=
  Host.rsqrt (F := Ideal) (maximumf (F := Ideal)
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 e)
      (broadcastInDim S3200000 ![] bcast_S_S3200000 (constant (F := Ideal) S_ .f32 0x3F800000#32)))
    (broadcastInDim S100000 ![] bcast_S_S100000 (constant (F := Ideal) S_ .f32 0x3F800000#32)))

/-- A per-node vector as a one-column matrix. -/
def col (v : S100000.Idx → EReal) : S100000x1.Idx → EReal := shapeCast S100000x1 v shapeCasts_S100000_S100000x1
/-- The first layer's bias as a one-row matrix. -/
def row16 (b : S16.Idx → EReal) : S1x16.Idx → EReal := shapeCast S1x16 b shapeCasts_S16_S1x16
/-- The second layer's bias as a one-row matrix. -/
def row64 (b : S64.Idx → EReal) : S1x64.Idx → EReal := shapeCast S1x64 b shapeCasts_S64_S1x64

/-- The sparse aggregation: gather the rows of `h` by source node (a negative index counted from the end), scatter-add them
    by destination node into zeros. -/
def agg (src dst : S3200000.Idx → BitVec 32) (h : S100000x16.Idx → EReal) : S100000x16.Idx → EReal :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 dst)
    (Host.gather gather_S100000x16_S3200000x1_S3200000x16_1_0_n_n_0_1_116 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- The first dense layer, each row scaled by its node's source norm. -/
def proj (X : S100000x512.Idx → EReal) (W : S512x16.Idx → EReal) (s : S100000x1.Idx → EReal) : S100000x16.Idx → EReal :=
  fun i => (∑ k : Fin 512, X (ix2 (node16 i) k) * W (ix2 k (feat16 i))) * s (ix2 (node16 i) (0 : Fin 1))

/-- Between the layers: the destination norm, the bias, the rectifier, the source norm. -/
def post (A : S100000x16.Idx → EReal) (sd ss : S100000x1.Idx → EReal) (b : S1x16.Idx → EReal) : S100000x16.Idx → EReal :=
  fun i => max (A i * sd (ix2 (node16 i) (0 : Fin 1)) + b (ix2 (0 : Fin 1) (feat16 i))) (Ideal.ofBits .f32 0x00000000#32)
    * ss (ix2 (node16 i) (0 : Fin 1))

/-- The second dense layer, each row scaled by its node's destination norm, plus the bias. -/
def outp (A : S100000x16.Idx → EReal) (W : S16x64.Idx → EReal) (sd : S100000x1.Idx → EReal) (b : S1x64.Idx → EReal) :
    S100000x64.Idx → EReal :=
  fun i => (∑ k : Fin 16, A (ix2 (node64 i) k) * W (ix2 k (feat64 i))) * sd (ix2 (node64 i) (0 : Fin 1))
    + b (ix2 (0 : Fin 1) (feat64 i))

/-- The whole forward pass as the kernel's program arranges it. -/
def forward (X : S100000x512.Idx → EReal) (W1 : S512x16.Idx → EReal) (b1 : S16.Idx → EReal) (W2 : S16x64.Idx → EReal)
    (b2 : S64.Idx → EReal) (src dst : S3200000.Idx → BitVec 32) : S100000x64.Idx → EReal :=
  outp (agg src dst (post (agg src dst (proj X W1 (col (norm src)))) (col (norm dst)) (col (norm src)) (row16 b1)))
    W2 (col (norm dst)) (row64 b2)

end Cert.GraphConv

end
-- ==== Proof.Region0.lean ====
/-
  The first kernel (the projection `features @ W1` with the source norm folded in), read as ONE whole-array function.

  The grid has 20 points; point `t` stages rows `5000 t … 5000 t + 4999` of the feature matrix and of the norm column,
  the whole weight matrix, and writes back rows `5000 t … 5000 t + 4999` of the result. Its body is a matrix product
  into a zero accumulator times the norm column broadcast along the features: entry `(p, q)` of the block is
  `(∑ k, x p k * w k q) * s p`. So what point `t` writes back is block `t` of `proj X W s`, the 20 blocks tile the
  result array, and the array ends holding `proj X W s` — for ANY contents `V` the region is entered with.
-/
import proofs.«174652_j1236950581664_1_alg».proof.Proof.Gen.KernelIdeal.Frame
import proofs.«174652_j1236950581664_1_alg».proof.Proof.Spec
import Idealize.ShloMosaic.Lib.Pipeline.Value
import Idealize.ShloMosaic.Lib.ValueIdx
import Idealize.ShloMosaic.PureOps.Ideal.Laws

noncomputable section

namespace Cert.GraphConv.Region0

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

/-! ## The body's arithmetic at an entry of the block -/

/-- The matrix product's record: rows times the contracted axis, the contracted axis times columns. -/
abbrev D := dot_S5000x512_S512x16_S5000x16_1_0_0_1_n_n

theorem lhs_row (i : S5000x16.Idx) (q : D.contr.Idx) : (D.lhsIdx i q 0).val = (i 0).val := by
  unfold DotDims.lhsIdx
  rw [dif_neg (show ¬(0 : Fin S5000x512.rank) ∈ D.lhsBatch by decide), dif_pos (show (0 : Fin S5000x512.rank) ∈ D.lhsNonContracting by decide)]
  rfl
theorem lhs_contr (i : S5000x16.Idx) (q : D.contr.Idx) : (D.lhsIdx i q 1).val = (q ⟨0, by decide⟩).val :=
  D.lhsIdx_val_of_single rfl i q
theorem rhs_contr (i : S5000x16.Idx) (q : D.contr.Idx) : (D.rhsIdx i q 0).val = (q ⟨0, by decide⟩).val :=
  D.rhsIdx_val_of_single rfl i q
theorem rhs_col (i : S5000x16.Idx) (q : D.contr.Idx) : (D.rhsIdx i q 1).val = (i 1).val := by
  unfold DotDims.rhsIdx
  rw [dif_neg (show ¬(1 : Fin S512x16.rank) ∈ D.rhsBatch by decide), dif_pos (show (1 : Fin S512x16.rank) ∈ D.rhsNonContracting by decide)]
  rfl

/-- Entry `(p, q)` of the stored block: the row of `x0` against the column of `x1`, times the row's scale. -/
theorem payload_apply (x0 : Vec Ideal S5000x512 .f32) (x1 : Vec Ideal S512x16 .f32) (x2 : Vec Ideal S5000x1 .f32)
    (p : Fin 5000) (q : Fin 16) :
    k0_pay1 x0 x1 x2 (ix2 p q) = (∑ k : Fin 512, x0 (ix2 p k) * x1 (ix2 k q)) * x2 (ix2 p (0 : Fin 1)) := by
  unfold k0_pay1
  refine congrArg₂ (· * ·) ?_ ?_
  · refine (Ideal.matmul_constant_zero_apply D none x0 x1 (ix2 p q)).trans ?_
    rw [← Equiv.sum_comp (contrEquiv1 D 512 rfl rfl).symm]
    refine Finset.sum_congr rfl fun k _ => ?_
    have hk := contrEquiv1_symm_val D 512 rfl rfl k
    have el : D.lhsIdx (ix2 p q) ((contrEquiv1 D 512 rfl rfl).symm k) = ix2 p k := funext fun a => Fin.ext (by
      match a with
      | ⟨0, _⟩ => exact lhs_row _ _
      | ⟨1, _⟩ => exact (lhs_contr _ _).trans hk)
    have er : D.rhsIdx (ix2 p q) ((contrEquiv1 D 512 rfl rfl).symm k) = ix2 k q := funext fun a => Fin.ext (by
      match a with
      | ⟨0, _⟩ => exact (rhs_contr _ _).trans hk
      | ⟨1, _⟩ => exact rhs_col _ _)
    rw [el, er]
  · refine (broadcastTo_apply _ broadcasts_S5000x1_S5000x16 (ix2 p q) (ix2 p (0 : Fin 1)) (fun a => by
      match a with
      | ⟨0, _⟩ => rfl
      | ⟨1, _⟩ => rfl)).trans ?_
    rw [shapeCast_self]

/-- A block of the result against the whole arrays: if the staged blocks are rows `5000 T …` of `X` and of `s` and all of
    `W`, the stored entry `j` is entry `i` of `proj X W s`, where `i` is `j` moved down by `5000 T` rows. -/
theorem block_eq (X : S100000x512.Idx → EReal) (W : S512x16.Idx → EReal) (s : S100000x1.Idx → EReal)
    (x0 : Vec Ideal S5000x512 .f32) (x1 : Vec Ideal S512x16 .f32) (x2 : Vec Ideal S5000x1 .f32) (T : Nat) (hT : T < 20)
    (h0 : ∀ (p : Fin 5000) (k : Fin 512), x0 (ix2 p k) = X (ix2 (⟨T * 5000 + p.val, by omega⟩ : Fin 100000) k))
    (h1 : ∀ (k : Fin 512) (q : Fin 16), x1 (ix2 k q) = W (ix2 k q))
    (h2 : ∀ p : Fin 5000, x2 (ix2 p (0 : Fin 1)) = s (ix2 (⟨T * 5000 + p.val, by omega⟩ : Fin 100000) (0 : Fin 1)))
    (j : S5000x16.Idx) (i : S100000x16.Idx) (hi0 : (i 0).val = T * 5000 + (j 0).val) (hi1 : (i 1).val = (j 1).val) :
    k0_pay1 x0 x1 x2 j = proj X W s i := by
  obtain ⟨p, q, rfl⟩ : ∃ (p : Fin 5000) (q : Fin 16), j = ix2 p q := ⟨j 0, j 1, eq_ix2 j⟩
  have hn : node16 i = (⟨T * 5000 + p.val, by omega⟩ : Fin 100000) := Fin.ext hi0
  have hf : feat16 i = q := Fin.ext hi1
  rw [payload_apply]
  unfold proj
  rw [hn, hf, h2 p]
  exact congrArg (· * _) (Finset.sum_congr rfl fun k _ => by rw [h0 p k, h1 k q])

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features, the norm column and the result move down with the point;
    the weights stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `proj` of the arrays as the region finds them. -/
theorem flushed_eq (c : Dev nD) (t : Fin cfg0.N) :
    (dat0 V c).flushed 3 t
      = ((cfg0.win 3).blk t).view.read (Elt Ideal) (proj (V c main_arg0) (V c main_arg1) (V c main_v13)) := by
  show (cfg0.win 3).cut (grid0.coords t) ((dat0 V c).after 3 t) = _
  rw [after0_3]
  unfold out0_3
  rw [View.canon_unit_zero zeros]
  simp only [View.ld_unit_zero (S := S5000x512) zeros, View.ld_unit_zero (S := S512x16) zeros, View.ld_unit_zero (S := S5000x1) zeros]
  obtain ⟨e00, e01, e10, e11, e20, e21, e30, e31⟩ := index_maps t
  have hT : t.val < 20 := lt_of_lt_of_eq t.isLt N_0
  funext j
  show k0_pay1 (iblk0 V c 0 t) (iblk0 V c 1 t) (iblk0 V c 2 t) j
    = proj (V c main_arg0) (V c main_arg1) (V c main_v13) (((cfg0.win 3).blk t).view.emb j)
  refine block_eq (V c main_arg0) (V c main_arg1) (V c main_v13) (iblk0 V c 0 t) (iblk0 V c 1 t) (iblk0 V c 2 t) t.val hT
    (fun p k => ?_) (fun k q => ?_) (fun p => ?_) j (((cfg0.win 3).blk t).view.emb j) ?_ ?_
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 512 + 1 * k.val = k.val; omega
  · show V c main_arg1 (((cfg0.win 1).blk t).view.emb (ix2 k q)) = _
    refine congrArg (V c main_arg1) (funext fun a => Fin.ext ?_)
    match a with
    | ⟨0, _⟩ => show win0_1.index t (0 : Fin 2) * 512 + 1 * k.val = k.val; omega
    | ⟨1, _⟩ => show win0_1.index t (1 : Fin 2) * 16 + 1 * q.val = q.val; omega
  · show V c main_v13 (((cfg0.win 2).blk t).view.emb (ix2 p (0 : Fin 1))) = _
    refine congrArg (V c main_v13) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · show win0_3.index t (0 : Fin 2) * 5000 + 1 * (j 0).val = t.val * 5000 + (j 0).val; omega
  · show win0_3.index t (1 : Fin 2) * 16 + 1 * (j 1).val = (j 1).val; omega

/-- An index of the result array is in point `t`'s block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v14).slice (win0_3.rect t)).set ↔ _
  rw [View.set_slice_whole, Rect.mem_set_unit]
  exact Iff.rfl

/-- The 20 blocks of 5000 rows tile the 100000 rows: row `r` is in point `r / 5000`'s block. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  refine ⟨⟨(i 0).val / 5000, lt_of_lt_of_eq (by omega : (i 0).val / 5000 < 20) N_0.symm⟩, flush0_3 _, ?_⟩
  obtain ⟨-, -, -, -, -, -, e30, e31⟩ := index_maps ⟨(i 0).val / 5000, lt_of_lt_of_eq (by omega : (i 0).val / 5000 < 20) N_0.symm⟩
  rw [mem_blk]
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 16 ≤ (i 1).val ∧ (i 1).val < win0_3.index _ (1 : Fin 2) * 16 + 16
    rw [e31]; omega

/-- THE ARRAY after the region: `proj` of the arrays the region was entered with. -/
theorem final (c : Dev nD) :
    (dat0 V c).arrAt 3 cfg0.N = proj (V c main_arg0) (V c main_arg1) (V c main_v13) :=
  (dat0 V c).arrAt_eq_of_cover 3 _ (fun t _ => flushed_eq V c t) cover

end Cert.GraphConv.Region0

end
-- ==== Proof.Region1.lean ====
/-
  The second kernel (between the layers), read as ONE whole-array function.

  Point `t` stages rows `5000 t … 5000 t + 4999` of the aggregated features and of the two norm columns, the bias row whole,
  and writes back the same rows of the result. Its body is pointwise: entry `(p, q)` of the block is
  `max (a p q * sd p + b q) 0 * ss p`. So what point `t` writes back is block `t` of `post A sd ss b`, the 20 blocks tile the
  result array, and the array ends holding `post A sd ss b` — for ANY contents `V` the region is entered with.
-/
import proofs.«174652_j1236950581664_1_alg».proof.Proof.Gen.KernelIdeal.Frame
import proofs.«174652_j1236950581664_1_alg».proof.Proof.Spec
import Idealize.ShloMosaic.Lib.Pipeline.Value
import Idealize.ShloMosaic.Lib.ValueIdx
import Idealize.ShloMosaic.PureOps.Ideal.Laws

noncomputable section

namespace Cert.GraphConv.Region1

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

/-! ## The body's arithmetic at an entry of the block -/

/-- A column `[5000, 1]` broadcast along 16 features, read at `(p, q)`, is the column at `p`. -/
theorem column_apply (x : Vec Ideal S5000x1 .f32) (p : Fin 5000) (q : Fin 16) :
    broadcastTo S5000x16 (shapeCast S5000x1 x shapeCasts_S5000x1_S5000x1) broadcasts_S5000x1_S5000x16 (ix2 p q)
      = x (ix2 p (0 : Fin 1)) := by
  refine (broadcastTo_apply _ broadcasts_S5000x1_S5000x16 (ix2 p q) (ix2 p (0 : Fin 1)) (fun a => by
    match a with
    | ⟨0, _⟩ => rfl
    | ⟨1, _⟩ => rfl)).trans ?_
  rw [shapeCast_self]

/-- A row `[1, 16]` broadcast down 5000 rows, read at `(p, q)`, is the row at `q`. -/
theorem bias_apply (x : Vec Ideal S1x16 .f32) (p : Fin 5000) (q : Fin 16) :
    broadcastTo S5000x16 (shapeCast S1x16 x shapeCasts_S1x16_S1x16) broadcasts_S1x16_S5000x16 (ix2 p q)
      = x (ix2 (0 : Fin 1) q) := by
  refine (broadcastTo_apply _ broadcasts_S1x16_S5000x16 (ix2 p q) (ix2 (0 : Fin 1) q) (fun a => by
    match a with
    | ⟨0, _⟩ => rfl
    | ⟨1, _⟩ => rfl)).trans ?_
  rw [shapeCast_self]

/-- Entry `(p, q)` of the stored block. The body's loads are, in its own order: the features, the destination norm, the
    bias, the source norm. -/
theorem payload_apply (x0 : Vec Ideal S5000x16 .f32) (xd : Vec Ideal S5000x1 .f32) (xb : Vec Ideal S1x16 .f32)
    (xs : Vec Ideal S5000x1 .f32) (p : Fin 5000) (q : Fin 16) :
    k1_pay1 x0 xd xb xs (ix2 p q)
      = max (x0 (ix2 p q) * xd (ix2 p (0 : Fin 1)) + xb (ix2 (0 : Fin 1) q)) (Ideal.ofBits .f32 0x00000000#32)
        * xs (ix2 p (0 : Fin 1)) := by
  unfold k1_pay1
  refine congrArg₂ (· * ·) ?_ (column_apply xs p q)
  refine congrArg₂ max ?_ rfl
  refine congrArg₂ (· + ·) ?_ (bias_apply xb p q)
  refine congrArg₂ (· * ·) ?_ (column_apply xd p q)
  rw [shapeCast_self]

/-- A block of the result against the whole arrays. -/
theorem block_eq (A : S100000x16.Idx → EReal) (sd ss : S100000x1.Idx → EReal) (b : S1x16.Idx → EReal)
    (x0 : Vec Ideal S5000x16 .f32) (xd : Vec Ideal S5000x1 .f32) (xb : Vec Ideal S1x16 .f32) (xs : Vec Ideal S5000x1 .f32)
    (T : Nat) (hT : T < 20)
    (h0 : ∀ (p : Fin 5000) (q : Fin 16), x0 (ix2 p q) = A (ix2 (⟨T * 5000 + p.val, by omega⟩ : Fin 100000) q))
    (hd : ∀ p : Fin 5000, xd (ix2 p (0 : Fin 1)) = sd (ix2 (⟨T * 5000 + p.val, by omega⟩ : Fin 100000) (0 : Fin 1)))
    (hb : ∀ q : Fin 16, xb (ix2 (0 : Fin 1) q) = b (ix2 (0 : Fin 1) q))
    (hs : ∀ p : Fin 5000, xs (ix2 p (0 : Fin 1)) = ss (ix2 (⟨T * 5000 + p.val, by omega⟩ : Fin 100000) (0 : Fin 1)))
    (j : S5000x16.Idx) (i : S100000x16.Idx) (hi0 : (i 0).val = T * 5000 + (j 0).val) (hi1 : (i 1).val = (j 1).val) :
    k1_pay1 x0 xd xb xs j = post A sd ss b i := by
  obtain ⟨p, q, rfl⟩ : ∃ (p : Fin 5000) (q : Fin 16), j = ix2 p q := ⟨j 0, j 1, eq_ix2 j⟩
  have hi : i = ix2 (⟨T * 5000 + p.val, by omega⟩ : Fin 100000) q := funext fun a => Fin.ext (by
    match a with
    | ⟨0, _⟩ => exact hi0
    | ⟨1, _⟩ => exact hi1)
  rw [payload_apply, h0 p q, hd p, hb q, hs p, hi]
  rfl

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features, the two norm columns and the result move down with the point;
    the bias row stays. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `post` of the arrays as the region finds them. -/
theorem flushed_eq (c : Dev nD) (t : Fin cfg1.N) :
    (dat1 V c).flushed 4 t
      = ((cfg1.win 4).blk t).view.read (Elt Ideal) (post (V c main_v24) (V c main_v25) (V c main_v26) (V c main_v27)) := by
  show (cfg1.win 4).cut (grid1.coords t) ((dat1 V c).after 4 t) = _
  rw [after1_4]
  unfold out1_4
  rw [View.canon_unit_zero zeros]
  simp only [View.ld_unit_zero (S := S5000x16) zeros, View.ld_unit_zero (S := S5000x1) zeros, View.ld_unit_zero (S := S1x16) zeros]
  obtain ⟨e00, e01, e10, e11, e20, e21, e30, e31, e40, e41⟩ := index_maps t
  have hT : t.val < 20 := lt_of_lt_of_eq t.isLt N_1
  funext j
  show k1_pay1 (iblk1 V c 0 t) (iblk1 V c 1 t) (iblk1 V c 3 t) (iblk1 V c 2 t) j
    = post (V c main_v24) (V c main_v25) (V c main_v26) (V c main_v27) (((cfg1.win 4).blk t).view.emb j)
  refine block_eq (V c main_v24) (V c main_v25) (V c main_v26) (V c main_v27)
    (iblk1 V c 0 t) (iblk1 V c 1 t) (iblk1 V c 3 t) (iblk1 V c 2 t) t.val hT
    (fun p q => ?_) (fun p => ?_) (fun q => ?_) (fun p => ?_) j (((cfg1.win 4).blk t).view.emb j) ?_ ?_
  · show V c main_v24 (((cfg1.win 0).blk t).view.emb (ix2 p q)) = _
    refine congrArg (V c main_v24) (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * q.val = q.val; omega
  · show V c main_v25 (((cfg1.win 1).blk t).view.emb (ix2 p (0 : Fin 1))) = _
    refine congrArg (V c main_v25) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v27 (((cfg1.win 3).blk t).view.emb (ix2 (0 : Fin 1) q)) = _
    refine congrArg (V c main_v27) (funext fun a => Fin.ext ?_)
    match a with
    | ⟨0, _⟩ => show win1_3.index t (0 : Fin 2) * 1 + 1 * 0 = 0; omega
    | ⟨1, _⟩ => show win1_3.index t (1 : Fin 2) * 16 + 1 * q.val = q.val; omega
  · show V c main_v26 (((cfg1.win 2).blk t).view.emb (ix2 p (0 : Fin 1))) = _
    refine congrArg (V c main_v26) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · show win1_4.index t (0 : Fin 2) * 5000 + 1 * (j 0).val = t.val * 5000 + (j 0).val; omega
  · show win1_4.index t (1 : Fin 2) * 16 + 1 * (j 1).val = (j 1).val; omega

/-- An index of the result array is in point `t`'s block iff each coordinate is in the block's range on its axis. -/
theorem mem_blk (t : Fin cfg1.N) (i : S100000x16.Idx) :
    i ∈ ((cfg1.win 4).blk t).view.set ↔ ∀ a : Fin 2, win1_4.index t a * S5000x16.size a ≤ (i a).val
      ∧ (i a).val < win1_4.index t a * S5000x16.size a + S5000x16.size a := by
  show i ∈ ((View.whole main_v28).slice (win1_4.rect t)).set ↔ _
  rw [View.set_slice_whole, Rect.mem_set_unit]
  exact Iff.rfl

/-- The 20 blocks of 5000 rows tile the 100000 rows. -/
theorem cover (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  refine ⟨⟨(i 0).val / 5000, lt_of_lt_of_eq (by omega : (i 0).val / 5000 < 20) N_1.symm⟩, flush1_4 _, ?_⟩
  obtain ⟨-, -, -, -, -, -, -, -, e40, e41⟩ := index_maps ⟨(i 0).val / 5000, lt_of_lt_of_eq (by omega : (i 0).val / 5000 < 20) N_1.symm⟩
  rw [mem_blk]
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 16 ≤ (i 1).val ∧ (i 1).val < win1_4.index _ (1 : Fin 2) * 16 + 16
    rw [e41]; omega

/-- THE ARRAY after the region: `post` of the arrays the region was entered with. -/
theorem final (c : Dev nD) :
    (dat1 V c).arrAt 4 cfg1.N = post (V c main_v24) (V c main_v25) (V c main_v26) (V c main_v27) :=
  (dat1 V c).arrAt_eq_of_cover 4 _ (fun t _ => flushed_eq V c t) cover

end Cert.GraphConv.Region1

end
-- ==== Proof.Region2.lean ====
/-
  The third kernel (the projection `h @ W2` with the destination norm folded in, plus the bias), read as ONE whole-array
  function.

  Point `t` stages rows `5000 t … 5000 t + 4999` of the aggregated features and of the norm column, the whole weight
  matrix and the bias row, and writes back the same rows of the result. Entry `(p, q)` of the block is
  `(∑ k, a p k * w k q) * sd p + b q`. So what point `t` writes back is block `t` of `outp A W sd b`, the 20 blocks tile the
  result array, and the array ends holding `outp A W sd b` — for ANY contents `V` the region is entered with.
-/
import proofs.«174652_j1236950581664_1_alg».proof.Proof.Gen.KernelIdeal.Frame
import proofs.«174652_j1236950581664_1_alg».proof.Proof.Spec
import Idealize.ShloMosaic.Lib.Pipeline.Value
import Idealize.ShloMosaic.Lib.ValueIdx
import Idealize.ShloMosaic.PureOps.Ideal.Laws

noncomputable section

namespace Cert.GraphConv.Region2

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

/-! ## The body's arithmetic at an entry of the block -/

/-- The matrix product's record: rows times the contracted axis, the contracted axis times columns. -/
abbrev D := dot_S5000x16_S16x64_S5000x64_1_0_0_1_n_n

theorem lhs_row (i : S5000x64.Idx) (q : D.contr.Idx) : (D.lhsIdx i q 0).val = (i 0).val := by
  unfold DotDims.lhsIdx
  rw [dif_neg (show ¬(0 : Fin S5000x16.rank) ∈ D.lhsBatch by decide), dif_pos (show (0 : Fin S5000x16.rank) ∈ D.lhsNonContracting by decide)]
  rfl
theorem lhs_contr (i : S5000x64.Idx) (q : D.contr.Idx) : (D.lhsIdx i q 1).val = (q ⟨0, by decide⟩).val :=
  D.lhsIdx_val_of_single rfl i q
theorem rhs_contr (i : S5000x64.Idx) (q : D.contr.Idx) : (D.rhsIdx i q 0).val = (q ⟨0, by decide⟩).val :=
  D.rhsIdx_val_of_single rfl i q
theorem rhs_col (i : S5000x64.Idx) (q : D.contr.Idx) : (D.rhsIdx i q 1).val = (i 1).val := by
  unfold DotDims.rhsIdx
  rw [dif_neg (show ¬(1 : Fin S16x64.rank) ∈ D.rhsBatch by decide), dif_pos (show (1 : Fin S16x64.rank) ∈ D.rhsNonContracting by decide)]
  rfl

/-- A column `[5000, 1]` broadcast along 64 labels, read at `(p, q)`, is the column at `p`. -/
theorem column_apply (x : Vec Ideal S5000x1 .f32) (p : Fin 5000) (q : Fin 64) :
    broadcastTo S5000x64 (shapeCast S5000x1 x shapeCasts_S5000x1_S5000x1) broadcasts_S5000x1_S5000x64 (ix2 p q)
      = x (ix2 p (0 : Fin 1)) := by
  refine (broadcastTo_apply _ broadcasts_S5000x1_S5000x64 (ix2 p q) (ix2 p (0 : Fin 1)) (fun a => by
    match a with
    | ⟨0, _⟩ => rfl
    | ⟨1, _⟩ => rfl)).trans ?_
  rw [shapeCast_self]

/-- A row `[1, 64]` broadcast down 5000 rows, read at `(p, q)`, is the row at `q`. -/
theorem bias_apply (x : Vec Ideal S1x64 .f32) (p : Fin 5000) (q : Fin 64) :
    broadcastTo S5000x64 (shapeCast S1x64 x shapeCasts_S1x64_S1x64) broadcasts_S1x64_S5000x64 (ix2 p q)
      = x (ix2 (0 : Fin 1) q) := by
  refine (broadcastTo_apply _ broadcasts_S1x64_S5000x64 (ix2 p q) (ix2 (0 : Fin 1) q) (fun a => by
    match a with
    | ⟨0, _⟩ => rfl
    | ⟨1, _⟩ => rfl)).trans ?_
  rw [shapeCast_self]

/-- The matrix product into the zero accumulator at `(p, q)`: the row of `x0` against the column of `x1`. -/
theorem product_apply (x0 : FVec Ideal S5000x16 .f32) (x1 : FVec Ideal S16x64 .f32) (p : Fin 5000) (q : Fin 64) :
    matmul (F := Ideal) D none (shapeCast S5000x16 x0 shapeCasts_S5000x16_S5000x16) x1 (constant (F := Ideal) S5000x64 .f32 0x00000000#32) (ix2 p q)
      = ∑ k : Fin 16, x0 (ix2 p k) * x1 (ix2 k q) := by
  rw [shapeCast_self]
  refine (Ideal.matmul_constant_zero_apply D none x0 x1 (ix2 p q)).trans ?_
  rw [← Equiv.sum_comp (contrEquiv1 D 16 rfl rfl).symm]
  refine Finset.sum_congr rfl fun k _ => ?_
  have hk := contrEquiv1_symm_val D 16 rfl rfl k
  have el : D.lhsIdx (ix2 p q) ((contrEquiv1 D 16 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 16 rfl rfl).symm k) = ix2 k q := funext fun a => Fin.ext (by
    match a with
    | ⟨0, _⟩ => exact (rhs_contr _ _).trans hk
    | ⟨1, _⟩ => exact rhs_col _ _)
  rw [el, er]

/-- Entry `(p, q)` of the stored block. -/
theorem payload_apply (x0 : Vec Ideal S5000x16 .f32) (x1 : Vec Ideal S16x64 .f32) (x2 : Vec Ideal S5000x1 .f32)
    (x3 : Vec Ideal S1x64 .f32) (p : Fin 5000) (q : Fin 64) :
    k2_pay1 x0 x1 x2 x3 (ix2 p q)
      = (∑ k : Fin 16, x0 (ix2 p k) * x1 (ix2 k q)) * x2 (ix2 p (0 : Fin 1)) + x3 (ix2 (0 : Fin 1) q) := by
  unfold k2_pay1
  refine congrArg₂ (· + ·) ?_ (bias_apply x3 p q)
  exact congrArg₂ (· * ·) (product_apply x0 x1 p q) (column_apply x2 p q)

/-- A block of the result against the whole arrays. -/
theorem block_eq (A : S100000x16.Idx → EReal) (W : S16x64.Idx → EReal) (sd : S100000x1.Idx → EReal) (b : S1x64.Idx → EReal)
    (x0 : Vec Ideal S5000x16 .f32) (x1 : Vec Ideal S16x64 .f32) (x2 : Vec Ideal S5000x1 .f32) (x3 : Vec Ideal S1x64 .f32)
    (T : Nat) (hT : T < 20)
    (h0 : ∀ (p : Fin 5000) (k : Fin 16), x0 (ix2 p k) = A (ix2 (⟨T * 5000 + p.val, by omega⟩ : Fin 100000) k))
    (h1 : ∀ (k : Fin 16) (q : Fin 64), x1 (ix2 k q) = W (ix2 k q))
    (h2 : ∀ p : Fin 5000, x2 (ix2 p (0 : Fin 1)) = sd (ix2 (⟨T * 5000 + p.val, by omega⟩ : Fin 100000) (0 : Fin 1)))
    (h3 : ∀ q : Fin 64, x3 (ix2 (0 : Fin 1) q) = b (ix2 (0 : Fin 1) q))
    (j : S5000x64.Idx) (i : S100000x64.Idx) (hi0 : (i 0).val = T * 5000 + (j 0).val) (hi1 : (i 1).val = (j 1).val) :
    k2_pay1 x0 x1 x2 x3 j = outp A W sd b i := by
  obtain ⟨p, q, rfl⟩ : ∃ (p : Fin 5000) (q : Fin 64), j = ix2 p q := ⟨j 0, j 1, eq_ix2 j⟩
  have hn : node64 i = (⟨T * 5000 + p.val, by omega⟩ : Fin 100000) := Fin.ext hi0
  have hf : feat64 i = q := Fin.ext hi1
  rw [payload_apply]
  unfold outp
  rw [hn, hf, h2 p, h3 q]
  exact congrArg (· * _ + _) (Finset.sum_congr rfl fun k _ => by rw [h0 p k, h1 k q])

/-! ## From blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the features, the norm column and the result move down with the point;
    the weights and the bias row stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of `outp` of the arrays as the region finds them. -/
theorem flushed_eq (c : Dev nD) (t : Fin cfg2.N) :
    (dat2 V c).flushed 4 t
      = ((cfg2.win 4).blk t).view.read (Elt Ideal) (outp (V c main_v38) (V c main_arg3) (V c main_v39) (V c main_v40)) := by
  show (cfg2.win 4).cut (grid2.coords t) ((dat2 V c).after 4 t) = _
  rw [after2_4]
  unfold out2_4
  rw [View.canon_unit_zero zeros]
  simp only [View.ld_unit_zero (S := S5000x16) zeros, View.ld_unit_zero (S := S16x64) zeros,
    View.ld_unit_zero (S := S5000x1) zeros, View.ld_unit_zero (S := S1x64) zeros]
  obtain ⟨e00, e01, e10, e11, e20, e21, e30, e31, e40, e41⟩ := index_maps t
  have hT : t.val < 20 := lt_of_lt_of_eq t.isLt N_2
  funext j
  show k2_pay1 (iblk2 V c 0 t) (iblk2 V c 1 t) (iblk2 V c 2 t) (iblk2 V c 3 t) j
    = outp (V c main_v38) (V c main_arg3) (V c main_v39) (V c main_v40) (((cfg2.win 4).blk t).view.emb j)
  refine block_eq (V c main_v38) (V c main_arg3) (V c main_v39) (V c main_v40)
    (iblk2 V c 0 t) (iblk2 V c 1 t) (iblk2 V c 2 t) (iblk2 V c 3 t) t.val hT
    (fun p k => ?_) (fun k q => ?_) (fun p => ?_) (fun q => ?_) j (((cfg2.win 4).blk t).view.emb j) ?_ ?_
  · show V c main_v38 (((cfg2.win 0).blk t).view.emb (ix2 p k)) = _
    refine congrArg (V c main_v38) (funext fun a => Fin.ext ?_)
    match a with
    | ⟨0, _⟩ => show win2_0.index t (0 : Fin 2) * 5000 + 1 * p.val = t.val * 5000 + p.val; omega
    | ⟨1, _⟩ => show win2_0.index t (1 : Fin 2) * 16 + 1 * k.val = k.val; omega
  · show V c main_arg3 (((cfg2.win 1).blk t).view.emb (ix2 k q)) = _
    refine congrArg (V c main_arg3) (funext fun a => Fin.ext ?_)
    match a with
    | ⟨0, _⟩ => show win2_1.index t (0 : Fin 2) * 16 + 1 * k.val = k.val; omega
    | ⟨1, _⟩ => show win2_1.index t (1 : Fin 2) * 64 + 1 * q.val = q.val; omega
  · show V c main_v39 (((cfg2.win 2).blk t).view.emb (ix2 p (0 : Fin 1))) = _
    refine congrArg (V c main_v39) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · show V c main_v40 (((cfg2.win 3).blk t).view.emb (ix2 (0 : Fin 1) q)) = _
    refine congrArg (V c main_v40) (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega
  · show win2_4.index t (0 : Fin 2) * 5000 + 1 * (j 0).val = t.val * 5000 + (j 0).val; omega
  · show win2_4.index t (1 : Fin 2) * 64 + 1 * (j 1).val = (j 1).val; omega

/-- An index of the result array is in point `t`'s block iff each coordinate is in the block's range on its axis. -/
theorem mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v41).slice (win2_4.rect t)).set ↔ _
  rw [View.set_slice_whole, Rect.mem_set_unit]
  exact Iff.rfl

/-- The 20 blocks of 5000 rows tile the 100000 rows. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  refine ⟨⟨(i 0).val / 5000, lt_of_lt_of_eq (by omega : (i 0).val / 5000 < 20) N_2.symm⟩, flush2_4 _, ?_⟩
  obtain ⟨-, -, -, -, -, -, -, -, e40, e41⟩ := index_maps ⟨(i 0).val / 5000, lt_of_lt_of_eq (by omega : (i 0).val / 5000 < 20) N_2.symm⟩
  rw [mem_blk]
  intro a
  match a with
  | ⟨0, _⟩ =>
    show win2_4.index _ (0 : Fin 2) * 5000 ≤ (i 0).val ∧ (i 0).val < win2_4.index _ (0 : Fin 2) * 5000 + 5000
    rw [e40]; show (i 0).val / 5000 * 5000 ≤ (i 0).val ∧ (i 0).val < (i 0).val / 5000 * 5000 + 5000; omega
  | ⟨1, _⟩ =>
    show win2_4.index _ (1 : Fin 2) * 64 ≤ (i 1).val ∧ (i 1).val < win2_4.index _ (1 : Fin 2) * 64 + 64
    rw [e41]; omega

/-- THE ARRAY after the region: `outp` of the arrays the region was entered with. -/
theorem final (c : Dev nD) :
    (dat2 V c).arrAt 4 cfg2.N = outp (V c main_v38) (V c main_arg3) (V c main_v39) (V c main_v40) :=
  (dat2 V c).arrAt_eq_of_cover 4 _ (fun t _ => flushed_eq V c t) cover

end Cert.GraphConv.Region2

end
-- ==== Proof.KernelValue.lean ====
/-
  The kernel program's result as the specification's forward pass of its arguments.

  The run leaves the result array at what the third kernel's write-backs leave (`Gen.W6`). Each kernel's output array is
  one whole-array function of the arrays the kernel was entered with (the three region modules); each of those arrays is
  read back through the boundary contents — a host stretch writes it (its operations' term of the buffers before the
  stretch), or nothing has written it since an earlier boundary — down to the launch memory. The sparse aggregations stay
  folded as `agg`; the norms as `norm`.
-/
import proofs.«174652_j1236950581664_1_alg».proof.Proof.KernelRun
import proofs.«174652_j1236950581664_1_alg».proof.Proof.Region0
import proofs.«174652_j1236950581664_1_alg».proof.Proof.Region1
import proofs.«174652_j1236950581664_1_alg».proof.Proof.Region2
import proofs.«174652_j1236950581664_1_alg».proof.Proof.Spec
import Idealize.ShloMosaic.Lib.StableHlo.Run

set_option maxRecDepth 16384

noncomputable section

namespace Cert.GraphConv.KernelValue

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first kernel's entry: after the first host stretch, from the launch memory -/

theorem W1_main_arg0 : W1 m ρ c (Proc.devRef .tc main_arg0) = m ((c : Thread nD τ).loc main_arg0) := by
  show StableHlo.after hostOps0 (W0 m ρ c) (Proc.devRef .tc main_arg0) = _
  after_results_simp <;> rfl
theorem W1_main_arg1 : W1 m ρ c (Proc.devRef .tc main_arg1) = m ((c : Thread nD τ).loc main_arg1) := by
  show StableHlo.after hostOps0 (W0 m ρ c) (Proc.devRef .tc main_arg1) = _
  after_results_simp <;> rfl
theorem W1_main_arg2 : W1 m ρ c (Proc.devRef .tc main_arg2) = m ((c : Thread nD τ).loc main_arg2) := by
  show StableHlo.after hostOps0 (W0 m ρ c) (Proc.devRef .tc main_arg2) = _
  after_results_simp <;> rfl
theorem W1_main_arg3 : W1 m ρ c (Proc.devRef .tc main_arg3) = m ((c : Thread nD τ).loc main_arg3) := by
  show StableHlo.after hostOps0 (W0 m ρ c) (Proc.devRef .tc main_arg3) = _
  after_results_simp <;> rfl
theorem W1_main_arg4 : W1 m ρ c (Proc.devRef .tc main_arg4) = m ((c : Thread nD τ).loc main_arg4) := by
  show StableHlo.after hostOps0 (W0 m ρ c) (Proc.devRef .tc main_arg4) = _
  after_results_simp <;> rfl
theorem W1_main_arg5 : W1 m ρ c (Proc.devRef .tc main_arg5) = m ((c : Thread nD τ).loc main_arg5) := by
  show StableHlo.after hostOps0 (W0 m ρ c) (Proc.devRef .tc main_arg5) = _
  after_results_simp <;> rfl
theorem W1_main_arg6 : W1 m ρ c (Proc.devRef .tc main_arg6) = m ((c : Thread nD τ).loc main_arg6) := by
  show StableHlo.after hostOps0 (W0 m ρ c) (Proc.devRef .tc main_arg6) = _
  after_results_simp <;> rfl
theorem W1_main_v9 : W1 m ρ c (Proc.devRef .tc main_v9) = norm (m ((c : Thread nD τ).loc main_arg5)) := by
  show StableHlo.after hostOps0 (W0 m ρ c) (Proc.devRef .tc main_v9) = _
  after_results_simp
  rfl
theorem W1_main_v12 : W1 m ρ c (Proc.devRef .tc main_v12) = norm (m ((c : Thread nD τ).loc main_arg6)) := by
  show StableHlo.after hostOps0 (W0 m ρ c) (Proc.devRef .tc main_v12) = _
  after_results_simp
  rfl
theorem W1_main_v13 : W1 m ρ c (Proc.devRef .tc main_v13) = col (norm (m ((c : Thread nD τ).loc main_arg5))) := by
  show StableHlo.after hostOps0 (W0 m ρ c) (Proc.devRef .tc main_v13) = _
  after_results_simp
  rfl

/-! ## At the first kernel's exit: its result array at `proj`, every other buffer as entered -/

theorem W2_main_arg2 : W2 m ρ c (Proc.devRef .tc main_arg2) = m ((c : Thread nD τ).loc main_arg2) :=
  (W2_of_ne m ρ c main_arg2 (by decide)).trans (W1_main_arg2 m ρ c)
theorem W2_main_arg3 : W2 m ρ c (Proc.devRef .tc main_arg3) = m ((c : Thread nD τ).loc main_arg3) :=
  (W2_of_ne m ρ c main_arg3 (by decide)).trans (W1_main_arg3 m ρ c)
theorem W2_main_arg4 : W2 m ρ c (Proc.devRef .tc main_arg4) = m ((c : Thread nD τ).loc main_arg4) :=
  (W2_of_ne m ρ c main_arg4 (by decide)).trans (W1_main_arg4 m ρ c)
theorem W2_main_arg5 : W2 m ρ c (Proc.devRef .tc main_arg5) = m ((c : Thread nD τ).loc main_arg5) :=
  (W2_of_ne m ρ c main_arg5 (by decide)).trans (W1_main_arg5 m ρ c)
theorem W2_main_arg6 : W2 m ρ c (Proc.devRef .tc main_arg6) = m ((c : Thread nD τ).loc main_arg6) :=
  (W2_of_ne m ρ c main_arg6 (by decide)).trans (W1_main_arg6 m ρ c)
theorem W2_main_v9 : W2 m ρ c (Proc.devRef .tc main_v9) = norm (m ((c : Thread nD τ).loc main_arg5)) :=
  (W2_of_ne m ρ c main_v9 (by decide)).trans (W1_main_v9 m ρ c)
theorem W2_main_v12 : W2 m ρ c (Proc.devRef .tc main_v12) = norm (m ((c : Thread nD τ).loc main_arg6)) :=
  (W2_of_ne m ρ c main_v12 (by decide)).trans (W1_main_v12 m ρ c)
theorem W2_main_v14 : W2 m ρ c (Proc.devRef .tc main_v14) = proj (m ((c : Thread nD τ).loc main_arg0)) (m ((c : Thread nD τ).loc main_arg1)) (col (norm (m ((c : Thread nD τ).loc main_arg5)))) := by
  refine (W2_arr m ρ c 3).trans ?_
  rw [Region0.final (V1 m ρ) c]
  show proj (W1 m ρ c (Proc.devRef .tc main_arg0)) (W1 m ρ c (Proc.devRef .tc main_arg1)) (W1 m ρ c (Proc.devRef .tc main_v13)) = _
  rw [W1_main_arg0 m ρ c, W1_main_arg1 m ρ c, W1_main_v13 m ρ c]

/-! ## At the second kernel's entry: after the second host stretch -/

theorem W3_main_arg3 : W3 m ρ c (Proc.devRef .tc main_arg3) = m ((c : Thread nD τ).loc main_arg3) := by
  show StableHlo.after hostOps1 (W2 m ρ c) (Proc.devRef .tc main_arg3) = _
  after_results_simp
  exact W2_main_arg3 m ρ c
theorem W3_main_arg4 : W3 m ρ c (Proc.devRef .tc main_arg4) = m ((c : Thread nD τ).loc main_arg4) := by
  show StableHlo.after hostOps1 (W2 m ρ c) (Proc.devRef .tc main_arg4) = _
  after_results_simp
  exact W2_main_arg4 m ρ c
theorem W3_main_arg5 : W3 m ρ c (Proc.devRef .tc main_arg5) = m ((c : Thread nD τ).loc main_arg5) := by
  show StableHlo.after hostOps1 (W2 m ρ c) (Proc.devRef .tc main_arg5) = _
  after_results_simp
  exact W2_main_arg5 m ρ c
theorem W3_main_arg6 : W3 m ρ c (Proc.devRef .tc main_arg6) = m ((c : Thread nD τ).loc main_arg6) := by
  show StableHlo.after hostOps1 (W2 m ρ c) (Proc.devRef .tc main_arg6) = _
  after_results_simp
  exact W2_main_arg6 m ρ c
theorem W3_main_v12 : W3 m ρ c (Proc.devRef .tc main_v12) = norm (m ((c : Thread nD τ).loc main_arg6)) := by
  show StableHlo.after hostOps1 (W2 m ρ c) (Proc.devRef .tc main_v12) = _
  after_results_simp
  exact W2_main_v12 m ρ c
theorem W3_main_v24 : W3 m ρ c (Proc.devRef .tc main_v24) = agg (m ((c : Thread nD τ).loc main_arg5)) (m ((c : Thread nD τ).loc main_arg6)) (proj (m ((c : Thread nD τ).loc main_arg0)) (m ((c : Thread nD τ).loc main_arg1)) (col (norm (m ((c : Thread nD τ).loc main_arg5))))) := by
  show StableHlo.after hostOps1 (W2 m ρ c) (Proc.devRef .tc main_v24) = _
  after_results_simp
  rw [W2_main_arg5 m ρ c, W2_main_arg6 m ρ c, W2_main_v14 m ρ c]
  rfl
theorem W3_main_v25 : W3 m ρ c (Proc.devRef .tc main_v25) = col (norm (m ((c : Thread nD τ).loc main_arg6))) := by
  show StableHlo.after hostOps1 (W2 m ρ c) (Proc.devRef .tc main_v25) = _
  after_results_simp
  rw [W2_main_v12 m ρ c]
  rfl
theorem W3_main_v26 : W3 m ρ c (Proc.devRef .tc main_v26) = col (norm (m ((c : Thread nD τ).loc main_arg5))) := by
  show StableHlo.after hostOps1 (W2 m ρ c) (Proc.devRef .tc main_v26) = _
  after_results_simp
  rw [W2_main_v9 m ρ c]
  rfl
theorem W3_main_v27 : W3 m ρ c (Proc.devRef .tc main_v27) = row16 (m ((c : Thread nD τ).loc main_arg2)) := by
  show StableHlo.after hostOps1 (W2 m ρ c) (Proc.devRef .tc main_v27) = _
  after_results_simp
  rw [W2_main_arg2 m ρ c]
  rfl

/-! ## At the second kernel's exit: its result array at `post`, every other buffer as entered -/

theorem W4_main_arg3 : W4 m ρ c (Proc.devRef .tc main_arg3) = m ((c : Thread nD τ).loc main_arg3) :=
  (W4_of_ne m ρ c main_arg3 (by decide)).trans (W3_main_arg3 m ρ c)
theorem W4_main_arg4 : W4 m ρ c (Proc.devRef .tc main_arg4) = m ((c : Thread nD τ).loc main_arg4) :=
  (W4_of_ne m ρ c main_arg4 (by decide)).trans (W3_main_arg4 m ρ c)
theorem W4_main_arg5 : W4 m ρ c (Proc.devRef .tc main_arg5) = m ((c : Thread nD τ).loc main_arg5) :=
  (W4_of_ne m ρ c main_arg5 (by decide)).trans (W3_main_arg5 m ρ c)
theorem W4_main_arg6 : W4 m ρ c (Proc.devRef .tc main_arg6) = m ((c : Thread nD τ).loc main_arg6) :=
  (W4_of_ne m ρ c main_arg6 (by decide)).trans (W3_main_arg6 m ρ c)
theorem W4_main_v12 : W4 m ρ c (Proc.devRef .tc main_v12) = norm (m ((c : Thread nD τ).loc main_arg6)) :=
  (W4_of_ne m ρ c main_v12 (by decide)).trans (W3_main_v12 m ρ c)
theorem W4_main_v28 : W4 m ρ c (Proc.devRef .tc main_v28) = post (agg (m ((c : Thread nD τ).loc main_arg5)) (m ((c : Thread nD τ).loc main_arg6)) (proj (m ((c : Thread nD τ).loc main_arg0)) (m ((c : Thread nD τ).loc main_arg1)) (col (norm (m ((c : Thread nD τ).loc main_arg5)))))) (col (norm (m ((c : Thread nD τ).loc main_arg6)))) (col (norm (m ((c : Thread nD τ).loc main_arg5)))) (row16 (m ((c : Thread nD τ).loc main_arg2))) := by
  refine (W4_arr m ρ c 4).trans ?_
  rw [Region1.final (V3 m ρ) c]
  show post (W3 m ρ c (Proc.devRef .tc main_v24)) (W3 m ρ c (Proc.devRef .tc main_v25)) (W3 m ρ c (Proc.devRef .tc main_v26)) (W3 m ρ c (Proc.devRef .tc main_v27)) = _
  rw [W3_main_v24 m ρ c, W3_main_v25 m ρ c, W3_main_v26 m ρ c, W3_main_v27 m ρ c]

/-! ## At the third kernel's entry: after the third host stretch -/

theorem W5_main_arg3 : W5 m ρ c (Proc.devRef .tc main_arg3) = m ((c : Thread nD τ).loc main_arg3) := by
  show StableHlo.after hostOps2 (W4 m ρ c) (Proc.devRef .tc main_arg3) = _
  after_results_simp
  exact W4_main_arg3 m ρ c
theorem W5_main_v38 : W5 m ρ c (Proc.devRef .tc main_v38) = agg (m ((c : Thread nD τ).loc main_arg5)) (m ((c : Thread nD τ).loc main_arg6)) (post (agg (m ((c : Thread nD τ).loc main_arg5)) (m ((c : Thread nD τ).loc main_arg6)) (proj (m ((c : Thread nD τ).loc main_arg0)) (m ((c : Thread nD τ).loc main_arg1)) (col (norm (m ((c : Thread nD τ).loc main_arg5)))))) (col (norm (m ((c : Thread nD τ).loc main_arg6)))) (col (norm (m ((c : Thread nD τ).loc main_arg5)))) (row16 (m ((c : Thread nD τ).loc main_arg2)))) := by
  show StableHlo.after hostOps2 (W4 m ρ c) (Proc.devRef .tc main_v38) = _
  after_results_simp
  rw [W4_main_arg5 m ρ c, W4_main_arg6 m ρ c, W4_main_v28 m ρ c]
  rfl
theorem W5_main_v39 : W5 m ρ c (Proc.devRef .tc main_v39) = col (norm (m ((c : Thread nD τ).loc main_arg6))) := by
  show StableHlo.after hostOps2 (W4 m ρ c) (Proc.devRef .tc main_v39) = _
  after_results_simp
  rw [W4_main_v12 m ρ c]
  rfl
theorem W5_main_v40 : W5 m ρ c (Proc.devRef .tc main_v40) = row64 (m ((c : Thread nD τ).loc main_arg4)) := by
  show StableHlo.after hostOps2 (W4 m ρ c) (Proc.devRef .tc main_v40) = _
  after_results_simp
  rw [W4_main_arg4 m ρ c]
  rfl

/-! ## The result -/

/-- THE RESULT ARRAY after the run is the specification's forward pass of the launch contents of the seven arguments. -/
theorem result_eq : W6 m ρ c (Proc.devRef .tc main_v41)
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 4).trans ?_
  rw [Region2.final (V5 m ρ) c]
  show outp (W5 m ρ c (Proc.devRef .tc main_v38)) (W5 m ρ c (Proc.devRef .tc main_arg3)) (W5 m ρ c (Proc.devRef .tc main_v39)) (W5 m ρ c (Proc.devRef .tc main_v40)) = _
  rw [W5_main_v38 m ρ c, W5_main_arg3 m ρ c, W5_main_v39 m ρ c, W5_main_v40 m ρ c]
  rfl

/-- The kernel program's run: the result at the forward pass of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41)
        = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (kernel_run m ρ)

end Cert.GraphConv.KernelValue

end
-- ==== Proof.LibScaleLaw.lean ====
/-
  Scaling a sum by a nonnegative real, on the extended reals — general lemmas, no program imported.

  * `sum_mul_scalar` — `(∑ k ∈ S, f k) * s = ∑ k ∈ S, f k * s` for `0 ≤ s`, `s ≠ ⊤`, whatever the summands are.
  * `scale_row` — `(∑ k ∈ S, x k * w k) * s = ∑ k ∈ S, (x k * s) * w k`: a row of a matrix product scaled after or before.
  * `ofBits_one_f32` — the f32 word `0x3F800000` is `1`.
  * `rsqrt_of_one_le`, `rsqrt_max_one` — `rsqrt y` for `1 ≤ y`, and so `rsqrt (max d 1)` for ANY `d`, is a nonnegative real.

  The use here: the one algebraic law of this certificate.

  A degree norm of a graph convolution is `rsqrt (max d 1)`: whatever the degree `d` is, `max d 1 ≥ 1`, so the norm is a
  real number in `[0, 1]` — never an infinity. Multiplication by such a scalar distributes over every finite sum of
  extended reals (no finiteness of the summands is needed), and the product of extended reals is commutative and
  associative, so a row of a matrix product may be scaled before or after the product is taken:
  `(∑ k, x k * w k) * s = ∑ k, (x k * s) * w k`.
-/
import Idealize.ShloMosaic.PureOps.Ideal
import Idealize.ShloMosaic.PureOps.Ideal.Laws
import Mathlib.Data.EReal.Operations

noncomputable section

namespace Cert.GraphConv

open Idealize.ShloMosaic

/-- Multiplying a finite sum of extended reals by a nonnegative finite scalar multiplies each summand. -/
theorem sum_mul_scalar {ι : Type*} (S : Finset ι) (f : ι → EReal) {s : EReal} (h0 : 0 ≤ s) (ht : s ≠ ⊤) :
    (∑ k ∈ S, f k) * s = ∑ k ∈ S, f k * s := by
  classical
  induction S using Finset.induction_on with
  | empty => simp
  | insert a S ha ih =>
    rw [Finset.sum_insert ha, Finset.sum_insert ha, EReal.right_distrib_of_nonneg_of_ne_top h0 ht, ih]

/-- A row of a matrix product scaled after the product is the product of the scaled row. -/
theorem scale_row {ι : Type*} (S : Finset ι) (x w : ι → EReal) {s : EReal} (h0 : 0 ≤ s) (ht : s ≠ ⊤) :
    (∑ k ∈ S, x k * w k) * s = ∑ k ∈ S, (x k * s) * w k := by
  rw [sum_mul_scalar S _ h0 ht]
  exact Finset.sum_congr rfl fun k _ => by rw [mul_assoc, mul_comm (w k) s, ← mul_assoc]

/-- The f32 word of `1.0` is the extended real `1`. -/
theorem ofBits_one_f32 : Ideal.ofBits .f32 0x3F800000#32 = 1 := by
  simp [Ideal.ofBits, Ideal.ieee, -EReal.coe_mul]; norm_num

/-- The reciprocal square root of an extended real that is at least one is a nonnegative real. -/
theorem rsqrt_of_one_le (y : EReal) (hy : 1 ≤ y) : 0 ≤ Ideal.rsqrt y ∧ Ideal.rsqrt y ≠ ⊤ := by
  induction y using EReal.rec with
  | bot => exact absurd hy (not_le.mpr (by exact_mod_cast EReal.bot_lt_coe (1 : ℝ)))
  | top => exact ⟨by simp, by simp⟩
  | coe r =>
    have hr : (1 : ℝ) ≤ r := by exact_mod_cast hy
    rw [Ideal.rsqrt_coe, if_neg (by linarith), if_neg (by linarith)]
    exact ⟨by exact_mod_cast inv_nonneg.mpr (Real.sqrt_nonneg r), EReal.coe_ne_top _⟩

/-- A degree norm `rsqrt (max d 1)` is a nonnegative real, whatever `d` is. -/
theorem rsqrt_max_one (d : EReal) :
    0 ≤ Ideal.rsqrt (max d (Ideal.ofBits .f32 0x3F800000#32)) ∧ Ideal.rsqrt (max d (Ideal.ofBits .f32 0x3F800000#32)) ≠ ⊤ := by
  rw [ofBits_one_f32]; exact rsqrt_of_one_le _ (le_max_right _ _)

end Cert.GraphConv

end
-- ==== Proof.NormFacts.lean ====
/-
  Reading the specification's small pieces at an index: a vector as a one-column matrix at `(n, 0)` is the vector at `n`, a
  bias as a one-row matrix at `(0, q)` is the bias at `q`, and a degree norm is a nonnegative real at every node — it is
  `rsqrt (max d 1)` whatever the degree count `d` is, so the count itself is never opened.
-/
import proofs.«174652_j1236950581664_1_alg».proof.Proof.Spec
import proofs.«174652_j1236950581664_1_alg».proof.Proof.LibScaleLaw
import Idealize.ShloMosaic.Lib.Pipeline.Value
import Idealize.ShloMosaic.Lib.ValueIdx

noncomputable section

namespace Cert.GraphConv

open Cert.KernelIdeal Cert.KernelIdeal.Facts₀ Cert.KernelIdeal.Facts Idealize.ShloMosaic Idealize.ShloMosaic.ValueIdx

theorem col_apply (v : S100000.Idx → EReal) (n : Fin 100000) : col v (ix2 n (0 : Fin 1)) = v (ix1 n) := by
  unfold col
  exact shapeCast_apply v shapeCasts_S100000_S100000x1 (ix2 n (0 : Fin 1)) (ix1 n) (by
    rw [Shape.rowMajor_val_one, Shape.rowMajor_val_two]; show n.val = n.val * 1 + 0; omega)

theorem row16_apply (b : S16.Idx → EReal) (q : Fin 16) : row16 b (ix2 (0 : Fin 1) q) = b (ix1 q) := by
  unfold row16
  exact shapeCast_apply b shapeCasts_S16_S1x16 (ix2 (0 : Fin 1) q) (ix1 q) (by
    rw [Shape.rowMajor_val_one, Shape.rowMajor_val_two]; show q.val = 0 * 16 + q.val; omega)

theorem row64_apply (b : S64.Idx → EReal) (q : Fin 64) : row64 b (ix2 (0 : Fin 1) q) = b (ix1 q) := by
  unfold row64
  exact shapeCast_apply b shapeCasts_S64_S1x64 (ix2 (0 : Fin 1) q) (ix1 q) (by
    rw [Shape.rowMajor_val_one, Shape.rowMajor_val_two]; show q.val = 0 * 64 + q.val; omega)

/-- `rsqrt (max d 1)` of a vector `d`, read at a node. -/
theorem rsqrt_max_apply (d : S100000.Idx → EReal) (n : S100000.Idx) :
    Host.rsqrt (F := Ideal) (maximumf (F := Ideal) d
      (broadcastInDim S100000 ![] bcast_S_S100000 (constant (F := Ideal) S_ .f32 0x3F800000#32))) n
      = Ideal.rsqrt (max (d n) (Ideal.ofBits .f32 0x3F800000#32)) := by
  show Ideal.rsqrt (max (d n) (broadcastInDim S100000 ![] bcast_S_S100000 (constant (F := Ideal) S_ .f32 0x3F800000#32) n)) = _
  rw [broadcastInDim_apply _ bcast_S_S100000 _ n ix0 (fun a => a.elim0)]
  rfl

/-- A degree norm is a nonnegative real at every node. -/
theorem norm_nonneg (e : S3200000.Idx → BitVec 32) (n : S100000.Idx) : 0 ≤ norm e n ∧ norm e n ≠ ⊤ := by
  unfold norm
  rw [rsqrt_max_apply]
  exact rsqrt_max_one _

end Cert.GraphConv

end
-- ==== Proof.RefValue.lean ====
/-
  The reference computes the specification.

  The reference's program, one operation at a time, is: the two degree norms; the features scaled row by row by the source
  norm and then projected; the sparse aggregation; destination norm, bias, rectifier, source norm; the aggregation again;
  the rows scaled by the destination norm and then projected, plus the bias. Against the specification (`forward`) only the
  two projections differ, by WHERE the row's scale sits — `∑ k, (x k * s) * w k` here, `(∑ k, x k * w k) * s` there — and
  these are equal because a degree norm is a nonnegative real. The two aggregations are the same function applied to
  equal arrays.
-/
import proofs.«174652_j1236950581664_1_alg».proof.Proof.Gen.ReferenceIdeal.Read
import proofs.«174652_j1236950581664_1_alg».proof.Proof.Spec
import proofs.«174652_j1236950581664_1_alg».proof.Proof.LibScaleLaw
import proofs.«174652_j1236950581664_1_alg».proof.Proof.NormFacts
import Idealize.ShloMosaic.Lib.Pipeline.Value
import Idealize.ShloMosaic.Lib.ValueIdx

noncomputable section

namespace Cert.GraphConv.Ref

open Cert.ReferenceIdeal Cert.ReferenceIdeal.Read Cert.GraphConv
open Idealize.ShloMosaic Idealize.ShloMosaic.ValueIdx

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x3 : (⟨S16x64, .f32⟩ : BufTy).Contents (Elt Ideal))
  (x4 : (⟨S64, .f32⟩ : BufTy).Contents (Elt Ideal)) (x5 x6 : (⟨S3200000, .i32⟩ : BufTy).Contents (Elt Ideal))

/-- The reference's source norm is the specification's. -/
theorem norm_src : val_main_v9 (F := Ideal) x5 = norm x5 := rfl
/-- The reference's destination norm is the specification's. -/
theorem norm_dst : val_main_v12 (F := Ideal) x6 = norm x6 := rfl

/-- The first projection: the rows scaled before the product, against the product scaled after. -/
theorem proj_eq : proj x0 x1 (col (norm x5)) = val_main_v16 (F := Ideal) x0 x1 x5 := by
  funext i
  rw [val_main_v16_apply]
  unfold proj
  rw [col_apply]
  obtain ⟨h0, ht⟩ := norm_nonneg x5 (ix1 (node16 i))
  rw [scale_row Finset.univ _ _ h0 ht]
  refine Finset.sum_congr rfl fun k _ => ?_
  have e1 : lidx_main_v16 i k = ix2 (node16 i) k := funext fun a => Fin.ext (by
    match a with
    | ⟨0, _⟩ => rfl
    | ⟨1, _⟩ => rfl)
  have e2 : ridx_main_v16 i k = ix2 k (feat16 i) := funext fun a => Fin.ext (by
    match a with
    | ⟨0, _⟩ => rfl
    | ⟨1, _⟩ => rfl)
  have e3 : idx_main_v13 (idx_main_v14 (ix2 (node16 i) k)) = ix1 (node16 i) := funext fun a => Fin.ext (by
    match a with
    | ⟨0, _⟩ => rfl)
  rw [e1, e2, val_main_v15_apply, val_main_v14_apply, val_main_v13_apply, e3, norm_src]
  rfl

/-- The first aggregation is the shared chain applied to the projection. -/
theorem agg_first : agg x5 x6 (val_main_v16 (F := Ideal) x0 x1 x5) = val_main_v26 (F := Ideal) x0 x1 x5 x6 := rfl

/-- Between the layers the two programs apply the same pointwise operations. -/
theorem post_eq : post (val_main_v26 (F := Ideal) x0 x1 x5 x6) (col (norm x6)) (col (norm x5)) (row16 x2)
    = val_main_v36 (F := Ideal) x0 x1 x2 x5 x6 := by
  funext i
  have e1 : idx_main_v27 (idx_main_v28 i) = ix1 (node16 i) := funext fun a => Fin.ext (by
    match a with
    | ⟨0, _⟩ => rfl)
  have e2 : idx_main_v30 (idx_main_v31 i) = ix1 (feat16 i) := funext fun a => Fin.ext (by
    match a with
    | ⟨0, _⟩ => rfl)
  have e3 : idx_main_v34 (idx_main_v35 i) = ix1 (node16 i) := funext fun a => Fin.ext (by
    match a with
    | ⟨0, _⟩ => rfl)
  rw [val_main_v36_apply, val_main_v33_apply, val_main_v32_apply, val_main_v29_apply, val_main_v28_apply,
    val_main_v27_apply, val_main_v31_apply, val_main_v30_apply, val_main_call0_v0_apply, val_main_call0_cst_apply,
    val_main_v35_apply, val_main_v34_apply, e1, e2, e3, norm_src, norm_dst]
  unfold post
  rw [col_apply, col_apply, row16_apply]
  rfl

/-- The second aggregation is the shared chain applied to the rectified layer. -/
theorem agg_second : agg x5 x6 (val_main_v36 (F := Ideal) x0 x1 x2 x5 x6) = val_main_v46 (F := Ideal) x0 x1 x2 x5 x6 := rfl

/-- The second projection: the rows scaled before the product, against the product scaled after; then the bias. -/
theorem outp_eq : outp (val_main_v46 (F := Ideal) x0 x1 x2 x5 x6) x3 (col (norm x6)) (row64 x4)
    = val_main_v53 (F := Ideal) x0 x1 x2 x3 x4 x5 x6 := by
  funext i
  rw [val_main_v53_apply, val_main_v50_apply]
  unfold outp
  rw [col_apply, row64_apply]
  refine congrArg₂ (· + ·) ?_ ?_
  · obtain ⟨h0, ht⟩ := norm_nonneg x6 (ix1 (node64 i))
    rw [scale_row Finset.univ _ _ h0 ht]
    refine Finset.sum_congr rfl fun k _ => ?_
    have e1 : lidx_main_v50 i k = ix2 (node64 i) k := funext fun a => Fin.ext (by
      match a with
      | ⟨0, _⟩ => rfl
      | ⟨1, _⟩ => rfl)
    have e2 : ridx_main_v50 i k = ix2 k (feat64 i) := funext fun a => Fin.ext (by
      match a with
      | ⟨0, _⟩ => rfl
      | ⟨1, _⟩ => rfl)
    have e3 : idx_main_v47 (idx_main_v48 (ix2 (node64 i) k)) = ix1 (node64 i) := funext fun a => Fin.ext (by
      match a with
      | ⟨0, _⟩ => rfl)
    rw [e1, e2, val_main_v49_apply, val_main_v48_apply, val_main_v47_apply, e3, norm_dst]
    rfl
  · have e4 : idx_main_v51 (idx_main_v52 i) = ix1 (feat64 i) := funext fun a => Fin.ext (by
      match a with
      | ⟨0, _⟩ => rfl)
    rw [val_main_v52_apply, val_main_v51_apply, e4]

/-- THE REFERENCE'S RESULT is the specification's forward pass of the arguments. -/
theorem forward_eq : forward x0 x1 x2 x3 x4 x5 x6 = val_main_v53 (F := Ideal) x0 x1 x2 x3 x4 x5 x6 := by
  unfold forward
  rw [proj_eq, agg_first, post_eq, agg_second, outp_eq]

end Cert.GraphConv.Ref

end
-- ==== Proof.lean ====
/-
  A two-layer graph convolution as three pipelined kernels against its plain array-program reference, equal on the
  extended reals.

  Both programs compute, for node features `X`, weights `W1`, `W2`, biases `b1`, `b2` and an edge list `(src, dst)`:
  the degree norms `ns = rsqrt (max outdeg 1)`, `nd = rsqrt (max indeg 1)`; a first dense layer; the sparse aggregation
  (gather rows by `src`, scatter-add them by `dst`); bias, rectifier and the two norms; the aggregation again; a second
  dense layer and its bias. The sparse aggregation and the degree counts are the SAME host operations in both programs,
  so they are carried as one function each and never opened. The programs differ in one place only: where a row's norm
  multiplies its dense layer. The kernels scale the product, `(∑ k, x k * w k) * s`; the reference scales the row first,
  `∑ k, (x k * s) * w k`. On the extended reals these agree for every `x` and `w` — infinite entries included — because
  `s = rsqrt (max d 1)` is a nonnegative real whatever `d` is, and multiplication by such a scalar distributes over a sum
  (Proof/LibScaleLaw.lean). The precondition (finite inputs) is therefore never used.

  * Proof/Spec.lean — the forward pass as one function of the seven arguments (`forward`).
  * Proof/Region0.lean, Region1.lean, Region2.lean — each kernel's output array is one whole-array function of the arrays
    it was entered with: point `t` of its 20-point grid writes rows `5000 t …` of that function, and the blocks tile the array.
  * Proof/KernelRun.lean, KernelValue.lean — the kernel program's run with its result named, and that result read back
    through the host stretches to `forward` of the launch contents.
  * Proof/RefValue.lean — the reference's result term is `forward` of the launch contents.
  The three frames are the generated ones; the idealization rewrote nothing, so `preserves` is `True`.
-/
import proofs.«174652_j1236950581664_1_alg».proof.Defs
import proofs.«174652_j1236950581664_1_alg».proof.Proof.Gen.Kernel
import proofs.«174652_j1236950581664_1_alg».proof.Proof.Gen.Kernel.Skeleton
import proofs.«174652_j1236950581664_1_alg».proof.Proof.Gen.Kernel.Launch
import proofs.«174652_j1236950581664_1_alg».proof.Proof.Gen.Kernel.Points
import proofs.«174652_j1236950581664_1_alg».proof.Proof.Gen.Kernel.Frame
import proofs.«174652_j1236950581664_1_alg».proof.Proof.Gen.KernelIdeal
import proofs.«174652_j1236950581664_1_alg».proof.Proof.Gen.KernelIdeal.Skeleton
import proofs.«174652_j1236950581664_1_alg».proof.Proof.Gen.KernelIdeal.Launch
import proofs.«174652_j1236950581664_1_alg».proof.Proof.Gen.KernelIdeal.Points
import proofs.«174652_j1236950581664_1_alg».proof.Proof.Gen.KernelIdeal.Frame
import proofs.«174652_j1236950581664_1_alg».proof.Proof.Gen.ReferenceIdeal
import proofs.«174652_j1236950581664_1_alg».proof.Proof.Gen.Pre_finite_inputs
import proofs.«174652_j1236950581664_1_alg».proof.Proof.Gen.ReferenceIdeal.Run
import proofs.«174652_j1236950581664_1_alg».proof.Proof.Gen.ReferenceIdeal.Read
import proofs.«174652_j1236950581664_1_alg».proof.Proof.KernelValue
import proofs.«174652_j1236950581664_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the forward pass of those arguments. -/
theorem algebraic : Cert.algebraic_KernelIdeal_ReferenceIdeal := by
  intro m ρ m' ρ' _ hagree
  refine ⟨_, Cert.GraphConv.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v53_eq, ← Cert.GraphConv.Ref.forward_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
